-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x96 : Shape := ⟨2, ![256, 96]⟩
abbrev S96 : Shape := ⟨1, ![96]⟩
abbrev S96x40 : Shape := ⟨2, ![96, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x96 : S_.BroadcastsInDim S256x96 (![] : Fin 0 → Fin S256x96.rank)
  reducesTo_S256x96_S_d0_1 : S256x96.ReducesTo [0, 1] S_
  bcast_S_S96 : S_.BroadcastsInDim S96 (![] : Fin 0 → Fin S96.rank)
  reducesTo_S96_S_d0 : S96.ReducesTo [0] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S96x40 1) : IVec S_ 1 :=
  let main_c_5 : IVec S_ 1 := constantI S_ 1 1#1
  let main_v17 : IVec S_ 1 := (fun x v => Host.reduce IntOp.andi x v reducesTo_S96x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x96 .f32) (main_arg3 : FVec F S96 .f32) (main_arg4 : FVec F S96x40 .f32) (main_arg5 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x96 .f32 := Host.absf main_arg2
  let main_cst_0 : FVec F S_ .f32 := constant S_ .f32 0x7F800000#32
  let main_v5 : FVec F S256x96 .f32 := broadcastInDim S256x96 ![] bcast_S_S256x96 main_cst_0
  let main_v6 : IVec S256x96 1 := cmpf .olt main_v4 main_v5
  let main_c_1 : IVec S_ 1 := constantI S_ 1 1#1
  let main_v7 : IVec S_ 1 := (fun x v => Host.reduce IntOp.andi x v reducesTo_S256x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x40 .f32 := Host.absf main_arg4
  let main_cst_4 : FVec F S_ .f32 := constant S_ .f32 0x7F800000#32
  let main_v15 : FVec F S96x40 .f32 := broadcastInDim S96x40 ![] bcast_S_S96x40 main_cst_4
  let main_v16 : IVec S96x40 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x96 : Shape := ⟨2, ![256, 96]⟩
abbrev S96 : Shape := ⟨1, ![96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S5000x256 : Shape := ⟨2, ![5000, 256]⟩
abbrev S5000x96 : Shape := ⟨2, ![5000, 96]⟩
abbrev S850000x96 : Shape := ⟨2, ![850000, 96]⟩
abbrev S1x96 : Shape := ⟨2, ![1, 96]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩

abbrev nBuf : Space → Nat
  | .hbm => 85
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x96, .f32⟩
  | .hbm, ⟨3, _⟩ => ⟨S96, .f32⟩
  | .hbm, ⟨4, _⟩ => ⟨S96x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S50000x96, .bf16⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x96, .bf16⟩
  | .hbm, ⟨57, _⟩ => ⟨S850000x96, .f32⟩
  | .hbm, ⟨58, _⟩ => ⟨S850000x96, .f32⟩
  | .hbm, ⟨59, _⟩ => ⟨S850000x96, .f32⟩
  | .hbm, ⟨60, _⟩ => ⟨S_, .f32⟩
  | .hbm, ⟨61, _⟩ => ⟨S50000x96, .f32⟩
  | .hbm, ⟨62, _⟩ => ⟨S850000x1, .i32⟩
  | .hbm, ⟨63, _⟩ => ⟨S50000x96, .f32⟩
  | .hbm, ⟨64, _⟩ => ⟨S1x96, .f32⟩
  | .hbm, ⟨65, _⟩ => ⟨S50000x96, .f32⟩
  | .hbm, ⟨66, _⟩ => ⟨S50000x40, .bf16⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x40, .bf16⟩
  | .hbm, ⟨76, _⟩ => ⟨S850000x40, .f32⟩
  | .hbm, ⟨77, _⟩ => ⟨S850000x40, .f32⟩
  | .hbm, ⟨78, _⟩ => ⟨S850000x40, .f32⟩
  | .hbm, ⟨79, _⟩ => ⟨S_, .f32⟩
  | .hbm, ⟨80, _⟩ => ⟨S50000x40, .f32⟩
  | .hbm, ⟨81, _⟩ => ⟨S850000x1, .i32⟩
  | .hbm, ⟨82, _⟩ => ⟨S50000x40, .f32⟩
  | .hbm, ⟨83, _⟩ => ⟨S1x40, .f32⟩
  | .hbm, ⟨84, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S256x96, .f32⟩
  | .local _ .vmem, ⟨3, _⟩ => ⟨S5000x96, .bf16⟩
  | .local _ .vmem, ⟨4, _⟩ => ⟨S5000x96, .bf16⟩
  | .local _ .vmem, ⟨5, _⟩ => ⟨S5000x96, .f32⟩
  | .local _ .vmem, ⟨6, _⟩ => ⟨S5000x96, .f32⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S96x40, .f32⟩
  | .local _ .vmem, ⟨13, _⟩ => ⟨S5000x40, .bf16⟩
  | .local _ .vmem, ⟨14, _⟩ => ⟨S5000x40, .bf16⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x96_S256x96_0_0 : ∀ a, (![0, 0] : Fin 2 → Nat) a + S256x96.size a ≤ S256x96.size a
  h_S256x96 : 0 < S256x96.numel
  inb_S5000x96_S5000x96_0_0 : ∀ a, (![0, 0] : Fin 2 → Nat) a + S5000x96.size a ≤ S5000x96.size a
  h_S5000x96 : 0 < S5000x96.numel
  packedbf16_S5000x96_S5000x96_0_0 : (Rect.unit (s := S5000x96) ![0, 0] S5000x96.size inb_S5000x96_S5000x96_0_0).PackedRows (EltTy.packing .bf16)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x40_S96x40_0_0 : ∀ a, (![0, 0] : Fin 2 → Nat) a + S96x40.size a ≤ S96x40.size a
  h_S96x40 : 0 < S96x40.numel
  inb_S5000x40_S5000x40_0_0 : ∀ a, (![0, 0] : Fin 2 → Nat) a + S5000x40.size a ≤ S5000x40.size a
  h_S5000x40 : 0 < S5000x40.numel
  packedbf16_S5000x40_S5000x40_0_0 : (Rect.unit (s := S5000x40) ![0, 0] S5000x40.size inb_S5000x40_S5000x40_0_0).PackedRows (EltTy.packing .bf16)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x96_S5000x96_1_0_0_1_n_n_wf : DotDims.WF S5000x256 S256x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x40_S5000x40_1_0_0_1_n_n_wf : DotDims.WF S5000x96 S96x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x96.size a ≤ S256x96.size a
  hwx0_1 : ∀ i : grid0.Coords, EltTy.bits .f32 = 32 ∨ (Rect.block (s := S256x96) S256x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .bf16 = 32 ∨ (Rect.block (s := S50000x96) S5000x96.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x40.size a ≤ S96x40.size a
  hwx2_1 : ∀ i : grid2.Coords, EltTy.bits .f32 = 32 ∨ (Rect.block (s := S96x40) S96x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .bf16 = 32 ∨ (Rect.block (s := S50000x40) S5000x40.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x96_S5000x96_1_0_0_1_n_n : DotDims S5000x256 S256x96 S5000x96 where
  lhsContracting := [1]
  rhsContracting := [0]
  lhsNonContracting := [0]
  rhsNonContracting := [1]
  lhsBatch := []
  rhsBatch := []
  wf := dot_S5000x256_S256x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x40_S5000x40_1_0_0_1_n_n : DotDims S5000x96 S96x40 S5000x40 where
  lhsContracting := [1]
  rhsContracting := [0]
  lhsNonContracting := [0]
  rhsNonContracting := [1]
  lhsBatch := []
  rhsBatch := []
  wf := dot_S5000x96_S96x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S96x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x96 : Shape := ⟨2, ![256, 96]⟩
abbrev S96 : Shape := ⟨1, ![96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 89
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x96, .f32⟩
  | .hbm, ⟨3, _⟩ => ⟨S96, .f32⟩
  | .hbm, ⟨4, _⟩ => ⟨S96x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x96, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x96, .f32⟩
  | .hbm, ⟨56, _⟩ => ⟨S850000x1, .f32⟩
  | .hbm, ⟨57, _⟩ => ⟨S850000x96, .f32⟩
  | .hbm, ⟨58, _⟩ => ⟨S850000x96, .f32⟩
  | .hbm, ⟨59, _⟩ => ⟨S_, .f32⟩
  | .hbm, ⟨60, _⟩ => ⟨S50000x96, .f32⟩
  | .hbm, ⟨61, _⟩ => ⟨S850000x1, .i32⟩
  | .hbm, ⟨62, _⟩ => ⟨S50000x96, .f32⟩
  | .hbm, ⟨63, _⟩ => ⟨S1x96, .f32⟩
  | .hbm, ⟨64, _⟩ => ⟨S50000x96, .f32⟩
  | .hbm, ⟨65, _⟩ => ⟨S50000x96, .f32⟩
  | .hbm, ⟨66, _⟩ => ⟨S_, .f32⟩
  | .hbm, ⟨67, _⟩ => ⟨S50000x96, .f32⟩
  | .hbm, ⟨68, _⟩ => ⟨S50000x96, .f32⟩
  | .hbm, ⟨69, _⟩ => ⟨S50000x40, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x40, .f32⟩
  | .hbm, ⟨79, _⟩ => ⟨S850000x1, .f32⟩
  | .hbm, ⟨80, _⟩ => ⟨S850000x40, .f32⟩
  | .hbm, ⟨81, _⟩ => ⟨S850000x40, .f32⟩
  | .hbm, ⟨82, _⟩ => ⟨S_, .f32⟩
  | .hbm, ⟨83, _⟩ => ⟨S50000x40, .f32⟩
  | .hbm, ⟨84, _⟩ => ⟨S850000x1, .i32⟩
  | .hbm, ⟨85, _⟩ => ⟨S50000x40, .f32⟩
  | .hbm, ⟨86, _⟩ => ⟨S1x40, .f32⟩
  | .hbm, ⟨87, _⟩ => ⟨S50000x40, .f32⟩
  | .hbm, ⟨88, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x96_S50000x96_1_0_0_1_n_n_wf : DotDims.WF S50000x256 S256x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x40_S50000x40_1_0_0_1_n_n_wf : DotDims.WF S50000x96 S96x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x96_S50000x96_1_0_0_1_n_n : DotDims S50000x256 S256x96 S50000x96 where
  lhsContracting := [1]
  rhsContracting := [0]
  lhsNonContracting := [0]
  rhsNonContracting := [1]
  lhsBatch := []
  rhsBatch := []
  wf := dot_S50000x256_S256x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel's run with its result NAMED. The program is four pipelined regions among stretches of host
  operations; its buffer contents at the nine segment boundaries are a fold from the launch memory, and every weakly
  fair execution ends with each unscoped buffer at the last boundary's contents. So the result buffer ends at the last
  region's write-backs folded over its array, and the six arguments end as launched.
-/
import proofs.«176664_j20263655703368_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents (the fold of the host stretches and the regions' write-backs from the launch memory) and the
    argument arrays as launched: the segments' run, the last thread state read against the final state. -/
theorem run_value : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Hand

end
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.MatProduct.lean ====
/-
  The two matrix products of the layer, each read at an index.

  A block of 5000 rows times the whole weight, accumulated from zero (the kernel's body, whose changes of float format are
  the identity on extended reals), and the whole array times the weight (the reference's dot_general), are both the sum
  over the contraction index k of l (p, k) · r (k, q): `rowsTimes`, one function for every extent.
-/
import proofs.«176664_j20263655703368_2_alg».proof.Proof.Gen.KernelIdeal.Skeleton
import proofs.«176664_j20263655703368_2_alg».proof.Proof.Gen.ReferenceIdeal
import proofs.«176664_j20263655703368_2_alg».proof.Proof.LibProductAt
import Idealize.ShloMosaic.PureOps.Ideal.Laws
import Idealize.ShloMosaic.Lib.Pipeline.Value

noncomputable section

namespace Cert.Hand

open Idealize.ShloMosaic Cert.ProductAt

/-- The product of an [A, K] array with a [K, B] array on the extended reals: at (p, q) the sum over k < K of
    x (p, k) · w (k, q). -/
def rowsTimes {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (at2 (i 0).val (ValueIdx.idx2_lt0 i) k.val k.isLt) * w (at2 k.val k.isLt (i 1).val (ValueIdx.idx2_lt1 i))

theorem rowsTimes_apply {A K B : Nat} (x : (⟨2, ![A, K]⟩ : Shape).Idx → EReal) (w : (⟨2, ![K, B]⟩ : Shape).Idx → EReal)
    (i : (⟨2, ![A, B]⟩ : Shape).Idx) :
    rowsTimes x w i = ∑ k : Fin K, x (at2 (i 0).val (ValueIdx.idx2_lt0 i) k.val k.isLt) * w (at2 k.val k.isLt (i 1).val (ValueIdx.idx2_lt1 i)) := rfl

section Kernel
open Cert.KernelIdeal Cert.KernelIdeal.Gen

/-- The first layer's block product: the body's payload is the block's rows times the weight. -/
theorem pay0_eq (x0 : Vec Ideal S5000x256 .f32) (x1 : Vec Ideal S256x96 .f32) : k0_pay1 x0 x1 = rowsTimes x0 x1 := by
  funext j
  unfold k0_pay1
  show FloatOps.matmul (F := Ideal) (φ₁ := .bf16) (φ₂ := .bf16) dot_S5000x256_S256x96_S5000x96_1_0_0_1_n_n none x0 x1 (constant S5000x96 .f32 0x00000000#32) j = _
  rw [Ideal.matmul_constant_zero_apply]
  refine product_sum_eq dot_S5000x256_S256x96_S5000x96_1_0_0_1_n_n rfl rfl rfl rfl (fun j q => ?_) (fun j q => ?_) x0 x1 j
  · unfold DotDims.lhsIdx; rw [dif_neg (by decide), dif_pos (by decide)]; rfl
  · unfold DotDims.rhsIdx; rw [dif_neg (by decide), dif_pos (by decide)]; rfl

/-- The second layer's block product. -/
theorem pay2_eq (x0 : Vec Ideal S5000x96 .f32) (x1 : Vec Ideal S96x40 .f32) : k2_pay1 x0 x1 = rowsTimes x0 x1 := by
  funext j
  unfold k2_pay1
  rw [shapeCast_self]
  show FloatOps.matmul (F := Ideal) (φ₁ := .bf16) (φ₂ := .bf16) dot_S5000x96_S96x40_S5000x40_1_0_0_1_n_n none x0 x1 (constant S5000x40 .f32 0x00000000#32) j = _
  rw [Ideal.matmul_constant_zero_apply]
  refine product_sum_eq dot_S5000x96_S96x40_S5000x40_1_0_0_1_n_n rfl rfl rfl rfl (fun j q => ?_) (fun j q => ?_) x0 x1 j
  · unfold DotDims.lhsIdx; rw [dif_neg (by decide), dif_pos (by decide)]; rfl
  · unfold DotDims.rhsIdx; rw [dif_neg (by decide), dif_pos (by decide)]; rfl

end Kernel

section Reference
open Cert.ReferenceIdeal

/-- The reference's first dot_general is the whole array times the weight. -/
theorem dot1_eq (x : FVec Ideal S50000x256 .f32) (w : FVec Ideal S256x96 .f32) :
    Host.dotGeneral dot_S50000x256_S256x96_S50000x96_1_0_0_1_n_n none x w = rowsTimes x w := by
  funext j
  simp only [Host.dotGeneral]
  rw [Ideal.dotGeneral_apply]
  refine product_sum_eq dot_S50000x256_S256x96_S50000x96_1_0_0_1_n_n rfl rfl rfl rfl (fun j q => ?_) (fun j q => ?_) x w j
  · unfold DotDims.lhsIdx; rw [dif_neg (by decide), dif_pos (by decide)]; rfl
  · unfold DotDims.rhsIdx; rw [dif_neg (by decide), dif_pos (by decide)]; rfl

/-- The reference's second dot_general. -/
theorem dot2_eq (x : FVec Ideal S50000x96 .f32) (w : FVec Ideal S96x40 .f32) :
    Host.dotGeneral dot_S50000x96_S96x40_S50000x40_1_0_0_1_n_n none x w = rowsTimes x w := by
  funext j
  simp only [Host.dotGeneral]
  rw [Ideal.dotGeneral_apply]
  refine product_sum_eq dot_S50000x96_S96x40_S50000x40_1_0_0_1_n_n rfl rfl rfl rfl (fun j q => ?_) (fun j q => ?_) x w j
  · unfold DotDims.lhsIdx; rw [dif_neg (by decide), dif_pos (by decide)]; rfl
  · unfold DotDims.rhsIdx; rw [dif_neg (by decide), dif_pos (by decide)]; rfl

end Reference

end Cert.Hand

end
-- ==== Proof.Region0.lean ====
/-
  Region 0 (the first layer's linear transform): the array its write-backs leave.

  The grid has ten points; point t stages rows 5000 t … 5000 t + 4999 of the left factor and the whole weight, and writes
  back the product of the two into rows 5000 t … of the result. A product's entry reads only its own row of the left
  factor, so each block written back is the block of the whole product, and the ten blocks cover the result array.
-/
import proofs.«176664_j20263655703368_2_alg».proof.Proof.Gen.KernelIdeal.Frame
import proofs.«176664_j20263655703368_2_alg».proof.Proof.MatProduct
import Idealize.ShloMosaic.Lib.Pipeline.Value

set_option maxRecDepth 16384

noncomputable section

namespace Cert.KernelIdeal.Hand

open Cert.KernelIdeal Cert.KernelIdeal.Gen Cert.Hand Cert.ProductAt
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the left factor's and the result's windows sit at block row t, the
    weight's at its one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point t is rows 5000 t … of its array. -/
theorem blk0_0_at (c : Dev nD) (t : Fin cfg0.N) (y : S5000x256.Idx) (i : S50000x256.Idx)
    (h0 : (i 0).val = 5000 * t.val + (y 0).val) (h1 : (i 1).val = (y 1).val) :
    (iblk0 V c 0 t : Vec Ideal S5000x256 .f32) y = (V c main_arg0 : S50000x256.Idx → EReal) i := by
  obtain ⟨e0, e1, -⟩ := idx0 t
  unfold iblk0
  rw [View.read_apply]
  show (V c main_arg0 : S50000x256.Idx → EReal) _ = (V c main_arg0 : S50000x256.Idx → EReal) _
  refine congrArg _ (funext fun a => Fin.ext ?_)
  match a with
  | ⟨0, _⟩ => show win0_0.index t 0 * 5000 + 1 * (y 0).val = (i 0).val; rw [e0, h0]; omega
  | ⟨1, _⟩ => show win0_0.index t 1 * 256 + 1 * (y 1).val = (i 1).val; rw [e1, h1]; omega

/-- The weight's block at every point is the whole weight. -/
theorem blk0_1_at (c : Dev nD) (t : Fin cfg0.N) (y : S256x96.Idx) (i : S256x96.Idx)
    (h0 : (i 0).val = (y 0).val) (h1 : (i 1).val = (y 1).val) :
    (iblk0 V c 1 t : Vec Ideal S256x96 .f32) y = (V c main_arg2 : S256x96.Idx → EReal) i := by
  obtain ⟨-, -, e2, e3, -⟩ := idx0 t
  unfold iblk0
  rw [View.read_apply]
  show (V c main_arg2 : S256x96.Idx → EReal) _ = (V c main_arg2 : S256x96.Idx → EReal) _
  refine congrArg _ (funext fun a => Fin.ext ?_)
  match a with
  | ⟨0, _⟩ => show win0_1.index t 0 * 256 + 1 * (y 0).val = (i 0).val; rw [e2, h0]; omega
  | ⟨1, _⟩ => show win0_1.index t 1 * 96 + 1 * (y 1).val = (i 1).val; rw [e3, h1]; omega

/-- What point t writes back is block t of the whole product of the two arrays as the region finds them. -/
theorem flushed0 (c : Dev nD) (t : Fin cfg0.N) :
    (dat0 V c).flushed 2 t = ((cfg0.win 2).blk t).view.read (Elt Ideal)
      (rowsTimes (V c main_arg0 : S50000x256.Idx → EReal) (V c main_arg2 : S256x96.Idx → EReal) : S50000x96.Idx → EReal) := by
  show (cfg0.win 2).cut (grid0.coords t) ((dat0 V c).after 2 t) = _
  rw [after0_2]
  unfold out0_2
  rw [View.canon_unit_zero hz0]
  simp only [View.ld_unit_zero (S := S5000x256) hz0, View.ld_unit_zero (S := S256x96) hz0]
  rw [pay0_eq]
  obtain ⟨-, -, -, -, e4, e5⟩ := idx0 t
  funext j
  show rowsTimes (iblk0 V c 0 t : Vec Ideal S5000x256 .f32) (iblk0 V c 1 t : Vec Ideal S256x96 .f32) j
    = rowsTimes (V c main_arg0 : S50000x256.Idx → EReal) (V c main_arg2 : S256x96.Idx → EReal) (((cfg0.win 2).blk t).view.emb j)
  rw [rowsTimes_apply, rowsTimes_apply]
  refine Finset.sum_congr rfl fun k _ => ?_
  refine congrArg₂ (· * ·) (blk0_0_at V c t _ _ ?_ ?_) (blk0_1_at V c t _ _ ?_ ?_)
  · show win0_2.index t 0 * 5000 + 1 * (j 0).val = 5000 * t.val + (j 0).val; rw [e4]; omega
  · rfl
  · rfl
  · show win0_2.index t 1 * 96 + 1 * (j 1).val = (j 1).val; rw [e5]; omega

/-- An index of the result array is in point t's block iff each coordinate is in the block's range on its axis. -/
theorem mem_blk0 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v31).slice (win0_2.rect t)).set ↔ _
  rw [View.set_slice_whole, Rect.mem_set_unit]
  exact Iff.rfl

/-- Row r of the result array is written back by the point r / 5000. -/
theorem cover0 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  have hN : cfg0.N = 10 := N_0
  have ht : (i 0).val / 5000 < cfg0.N := by rw [hN]; omega
  obtain ⟨-, -, -, -, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 96 ≤ (i 1).val ∧ (i 1).val < win0_2.index ⟨(i 0).val / 5000, ht⟩ 1 * 96 + 96
    rw [e5]; omega

/-- The result array after the region: the whole product of the two arrays as the region finds them. -/
theorem final0 (c : Dev nD) : (dat0 V c).arrAt 2 cfg0.N
    = (rowsTimes (V c main_arg0 : S50000x256.Idx → EReal) (V c main_arg2 : S256x96.Idx → EReal) : S50000x96.Idx → EReal) :=
  (dat0 V c).arrAt_eq_of_cover 2 _ (fun t _ => flushed0 V c t) cover0

end Cert.KernelIdeal.Hand

end
-- ==== Proof.BiasAdd.lean ====
/-
  The bias epilogues, each read at an index.

  After the aggregation a layer adds its bias, one row of length B, to every row of the [A, B] array, and the first layer
  then takes the maximum with zero. The kernel does so on blocks of 5000 rows, the bias staged as a [1, B] array and
  broadcast over the block's rows; the reference broadcasts the [B] vector to [1, B] and then to [A, B] and applies the
  whole-array operations. Both are `addRow` (and `addRowRelu`) of the array and the [1, B] view of the bias.
-/
import proofs.«176664_j20263655703368_2_alg».proof.Proof.Gen.KernelIdeal.Skeleton
import proofs.«176664_j20263655703368_2_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.Hand

open Idealize.ShloMosaic Idealize.ShloMosaic.ValueIdx

/-- Row `b` added to every row of `a`: at (p, q) it is a (p, q) + b (0, q). -/
def addRow {A B : Nat} (a : (⟨2, ![A, B]⟩ : Shape).Idx → EReal) (b : (⟨2, ![1, B]⟩ : Shape).Idx → EReal) :
    (⟨2, ![A, B]⟩ : Shape).Idx → EReal :=
  fun i => a i + b (ix2 (0 : Fin 1) ⟨(i 1).val, idx2_lt1 i⟩)

/-- The same followed by the maximum with zero. -/
def addRowRelu {A B : Nat} (a : (⟨2, ![A, B]⟩ : Shape).Idx → EReal) (b : (⟨2, ![1, B]⟩ : Shape).Idx → EReal) :
    (⟨2, ![A, B]⟩ : Shape).Idx → EReal :=
  fun i => max (a i + b (ix2 (0 : Fin 1) ⟨(i 1).val, idx2_lt1 i⟩)) 0

theorem addRow_apply {A B : Nat} (a : (⟨2, ![A, B]⟩ : Shape).Idx → EReal) (b : (⟨2, ![1, B]⟩ : Shape).Idx → EReal)
    (i : (⟨2, ![A, B]⟩ : Shape).Idx) : addRow a b i = a i + b (ix2 (0 : Fin 1) ⟨(i 1).val, idx2_lt1 i⟩) := rfl

theorem addRowRelu_apply {A B : Nat} (a : (⟨2, ![A, B]⟩ : Shape).Idx → EReal) (b : (⟨2, ![1, B]⟩ : Shape).Idx → EReal)
    (i : (⟨2, ![A, B]⟩ : Shape).Idx) : addRowRelu a b i = max (a i + b (ix2 (0 : Fin 1) ⟨(i 1).val, idx2_lt1 i⟩)) 0 := rfl

section Kernel
open Cert.KernelIdeal Cert.KernelIdeal.Gen

/-- The first layer's epilogue on a block: the body's payload adds the staged bias row to the block's rows and takes the
    maximum with zero. -/
theorem pay1_eq (v0 : Vec Ideal S5000x96 .f32) (v2 : Vec Ideal S1x96 .f32) : k1_pay1 v0 v2 = addRowRelu v0 v2 := by
  funext j
  obtain ⟨p, q, rfl⟩ : ∃ (p : Fin 5000) (q : Fin 96), j = ix2 p q := ⟨j 0, j 1, eq_ix2 j⟩
  unfold k1_pay1
  rw [shapeCast_self, shapeCast_self]
  show max (v0 (ix2 p q) + broadcastTo S5000x96 v2 broadcasts_S1x96_S5000x96 (ix2 p q)) (Ideal.ofBits .f32 0x00000000#32) = max (v0 (ix2 p q) + v2 (ix2 (0 : Fin 1) q)) 0
  rw [broadcastTo_1b_ab_apply, Ideal.ofBits_zero_f32]

/-- The second layer's epilogue on a block: the staged bias row added to the block's rows. -/
theorem pay3_eq (v0 : Vec Ideal S5000x40 .f32) (v2 : Vec Ideal S1x40 .f32) : k3_pay1 v0 v2 = addRow v0 v2 := by
  funext j
  obtain ⟨p, q, rfl⟩ : ∃ (p : Fin 5000) (q : Fin 40), j = ix2 p q := ⟨j 0, j 1, eq_ix2 j⟩
  unfold k3_pay1
  rw [shapeCast_self, shapeCast_self]
  show v0 (ix2 p q) + broadcastTo S5000x40 v2 broadcasts_S1x40_S5000x40 (ix2 p q) = v0 (ix2 p q) + v2 (ix2 (0 : Fin 1) q)
  rw [broadcastTo_1b_ab_apply]

end Kernel

section Reference
open Cert.ReferenceIdeal Cert.ReferenceIdeal.Facts₀

/-- A [B] vector broadcast to [1, B] and then to [A, B], read at (p, q), is the vector at q; so is its [1, B] reshape
    read at (0, q). -/
theorem bias_two_steps {A B : Nat} (b : (⟨1, ![B]⟩ : Shape).Idx → EReal)
    (h1 : (⟨1, ![B]⟩ : Shape).BroadcastsInDim ⟨2, ![1, B]⟩ ![1]) (h2 : (⟨2, ![1, B]⟩ : Shape).BroadcastsInDim ⟨2, ![A, B]⟩ ![0, 1])
    (hc : (⟨1, ![B]⟩ : Shape).ShapeCasts ⟨2, ![1, B]⟩) (p : Fin A) (q : Fin B) :
    broadcastInDim ⟨2, ![A, B]⟩ ![0, 1] h2 (broadcastInDim ⟨2, ![1, B]⟩ ![1] h1 b) (ix2 p q)
      = shapeCast ⟨2, ![1, B]⟩ b hc (ix2 (0 : Fin 1) q) := by
  rw [shapeCast_a_1a_apply b hc 0 q]
  rw [broadcastInDim_apply ![0, 1] h2 _ (ix2 p q) (ix2 (0 : Fin 1) q) (fun a => by
    match a with
    | ⟨0, _⟩ => rfl
    | ⟨1, _⟩ =>
      show q.val = if B = 1 then 0 else q.val
      split
      · have := q.isLt; omega
      · rfl)]
  exact broadcastInDim_apply ![1] h1 b (ix2 (0 : Fin 1) q) (ix1 q) (fun a => by
    match a with
    | ⟨0, _⟩ =>
      show q.val = if B = 1 then 0 else q.val
      split
      · have := q.isLt; omega
      · rfl)

/-- The reference's first epilogue — the bias broadcast in two steps and added, then the maximum with a zero array —
    is `addRowRelu` of the aggregate and the [1, 96] reshape of the bias. -/
theorem ref_bias1 (agg : FVec Ideal S50000x96 .f32) (b : FVec Ideal S96 .f32) (hc : S96.ShapeCasts S1x96) :
    maximumf (addf agg (broadcastInDim S50000x96 ![0, 1] bcast_S1x96_S50000x96_0_1 (broadcastInDim S1x96 ![1] bcast_S96_S1x96_1 b)))
        (broadcastInDim S50000x96 ![] bcast_S_S50000x96 (constant S_ .f32 0x00000000#32))
      = addRowRelu agg (shapeCast S1x96 b hc) := by
  funext j
  obtain ⟨p, q, rfl⟩ : ∃ (p : Fin 50000) (q : Fin 96), j = ix2 p q := ⟨j 0, j 1, eq_ix2 j⟩
  show max (agg (ix2 p q) + broadcastInDim S50000x96 ![0, 1] bcast_S1x96_S50000x96_0_1 (broadcastInDim S1x96 ![1] bcast_S96_S1x96_1 b) (ix2 p q))
      (Ideal.ofBits .f32 0x00000000#32) = max (agg (ix2 p q) + shapeCast S1x96 b hc (ix2 (0 : Fin 1) q)) 0
  rw [bias_two_steps b bcast_S96_S1x96_1 bcast_S1x96_S50000x96_0_1 hc p q, Ideal.ofBits_zero_f32]

/-- The reference's second epilogue is `addRow` of the aggregate and the [1, 40] reshape of the bias. -/
theorem ref_bias2 (agg : FVec Ideal S50000x40 .f32) (b : FVec Ideal S40 .f32) (hc : S40.ShapeCasts S1x40) :
    addf agg (broadcastInDim S50000x40 ![0, 1] bcast_S1x40_S50000x40_0_1 (broadcastInDim S1x40 ![1] bcast_S40_S1x40_1 b))
      = addRow agg (shapeCast S1x40 b hc) := by
  funext j
  obtain ⟨p, q, rfl⟩ : ∃ (p : Fin 50000) (q : Fin 40), j = ix2 p q := ⟨j 0, j 1, eq_ix2 j⟩
  show agg (ix2 p q) + broadcastInDim S50000x40 ![0, 1] bcast_S1x40_S50000x40_0_1 (broadcastInDim S1x40 ![1] bcast_S40_S1x40_1 b) (ix2 p q)
      = agg (ix2 p q) + shapeCast S1x40 b hc (ix2 (0 : Fin 1) q)
  rw [bias_two_steps b bcast_S40_S1x40_1 bcast_S1x40_S50000x40_0_1 hc p q]

end Reference

end Cert.Hand

end
-- ==== Proof.Region1.lean ====
/-
  Region 1 (the first layer's bias and relu): the array its write-backs leave.

  The grid has ten points; point t stages rows 5000 t … 5000 t + 4999 of the aggregate and the one staged bias row, and
  writes back the block's rows with the bias row added and the maximum with zero taken into rows 5000 t … of the result. The operation is
  entry by entry, so each block written back is the block of the whole-array operation, and the ten blocks cover the
  result array.
-/
import proofs.«176664_j20263655703368_2_alg».proof.Proof.Gen.KernelIdeal.Frame
import proofs.«176664_j20263655703368_2_alg».proof.Proof.BiasAdd
import Idealize.ShloMosaic.Lib.Pipeline.Value

set_option maxRecDepth 16384

noncomputable section

namespace Cert.KernelIdeal.Hand

open Cert.KernelIdeal Cert.KernelIdeal.Gen Cert.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the aggregate's and the result's windows sit at block row t, the
    bias row's at its one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The aggregate's block at point t is rows 5000 t … of its array. -/
theorem blk1_0_at (c : Dev nD) (t : Fin cfg1.N) (y : S5000x96.Idx) (i : S50000x96.Idx)
    (h0 : (i 0).val = 5000 * t.val + (y 0).val) (h1 : (i 1).val = (y 1).val) :
    (iblk1 V c 0 t : Vec Ideal S5000x96 .f32) y = (V c main_v44 : S50000x96.Idx → EReal) i := by
  obtain ⟨e0, e1, -⟩ := idx1 t
  unfold iblk1
  rw [View.read_apply]
  show (V c main_v44 : S50000x96.Idx → EReal) _ = (V c main_v44 : S50000x96.Idx → EReal) _
  refine congrArg _ (funext fun a => Fin.ext ?_)
  match a with
  | ⟨0, _⟩ => show win1_0.index t 0 * 5000 + 1 * (y 0).val = (i 0).val; rw [e0, h0]; omega
  | ⟨1, _⟩ => show win1_0.index t 1 * 96 + 1 * (y 1).val = (i 1).val; rw [e1, h1]; omega

/-- The bias row's block at every point is the whole [1, 96] array. -/
theorem blk1_1_at (c : Dev nD) (t : Fin cfg1.N) (y : S1x96.Idx) (i : S1x96.Idx)
    (h0 : (i 0).val = (y 0).val) (h1 : (i 1).val = (y 1).val) :
    (iblk1 V c 1 t : Vec Ideal S1x96 .f32) y = (V c main_v45 : S1x96.Idx → EReal) i := by
  obtain ⟨-, -, e2, e3, -⟩ := idx1 t
  unfold iblk1
  rw [View.read_apply]
  show (V c main_v45 : S1x96.Idx → EReal) _ = (V c main_v45 : S1x96.Idx → EReal) _
  refine congrArg _ (funext fun a => Fin.ext ?_)
  match a with
  | ⟨0, _⟩ => show win1_1.index t 0 * 1 + 1 * (y 0).val = (i 0).val; rw [e2, h0]; omega
  | ⟨1, _⟩ => show win1_1.index t 1 * 96 + 1 * (y 1).val = (i 1).val; rw [e3, h1]; omega

/-- What point t writes back is block t of the whole-array operation on the two arrays as the region finds them. -/
theorem flushed1 (c : Dev nD) (t : Fin cfg1.N) :
    (dat1 V c).flushed 2 t = ((cfg1.win 2).blk t).view.read (Elt Ideal)
      (addRowRelu (V c main_v44 : S50000x96.Idx → EReal) (V c main_v45 : S1x96.Idx → EReal) : S50000x96.Idx → EReal) := by
  show (cfg1.win 2).cut (grid1.coords t) ((dat1 V c).after 2 t) = _
  rw [after1_2]
  unfold out1_2
  rw [View.canon_unit_zero hz1]
  simp only [View.ld_unit_zero (S := S5000x96) hz1, View.ld_unit_zero (S := S1x96) hz1]
  rw [pay1_eq]
  obtain ⟨-, -, -, -, e4, e5⟩ := idx1 t
  funext j
  show addRowRelu (iblk1 V c 0 t : Vec Ideal S5000x96 .f32) (iblk1 V c 1 t : Vec Ideal S1x96 .f32) j
    = addRowRelu (V c main_v44 : S50000x96.Idx → EReal) (V c main_v45 : S1x96.Idx → EReal) (((cfg1.win 2).blk t).view.emb j)
  rw [addRowRelu_apply, addRowRelu_apply]
  refine congrArg (max · 0) (congrArg₂ (· + ·) (blk1_0_at V c t _ _ ?_ ?_) (blk1_1_at V c t _ _ ?_ ?_))
  · show win1_2.index t 0 * 5000 + 1 * (j 0).val = 5000 * t.val + (j 0).val; rw [e4]; omega
  · show win1_2.index t 1 * 96 + 1 * (j 1).val = (j 1).val; rw [e5]; omega
  · rfl
  · show win1_2.index t 1 * 96 + 1 * (j 1).val = (j 1).val; rw [e5]; omega

/-- An index of the result array is in point t's block iff each coordinate is in the block's range on its axis. -/
theorem mem_blk1 (t : Fin cfg1.N) (i : S50000x96.Idx) :
    i ∈ ((cfg1.win 2).blk t).view.set ↔ ∀ a : Fin 2, win1_2.index t a * S5000x96.size a ≤ (i a).val ∧ (i a).val < win1_2.index t a * S5000x96.size a + S5000x96.size a := by
  show i ∈ ((View.whole main_v46).slice (win1_2.rect t)).set ↔ _
  rw [View.set_slice_whole, Rect.mem_set_unit]
  exact Iff.rfl

/-- Row r of the result array is written back by the point r / 5000. -/
theorem cover1 (i : S50000x96.Idx) : ∃ t : Fin cfg1.N, (cfg1.win 2).flush t = true ∧ i ∈ ((cfg1.win 2).blk t).view.set := by
  have hi0 : (i 0).val < 50000 := (i 0).isLt
  have hi1 : (i 1).val < 96 := (i 1).isLt
  have hN : cfg1.N = 10 := N_1
  have ht : (i 0).val / 5000 < cfg1.N := by rw [hN]; omega
  obtain ⟨-, -, -, -, e4, e5⟩ := idx1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ 1 * 96 ≤ (i 1).val ∧ (i 1).val < win1_2.index ⟨(i 0).val / 5000, ht⟩ 1 * 96 + 96
    rw [e5]; omega

/-- The result array after the region: the whole-array operation on the two arrays as the region finds them. -/
theorem final1 (c : Dev nD) : (dat1 V c).arrAt 2 cfg1.N
    = (addRowRelu (V c main_v44 : S50000x96.Idx → EReal) (V c main_v45 : S1x96.Idx → EReal) : S50000x96.Idx → EReal) :=
  (dat1 V c).arrAt_eq_of_cover 2 _ (fun t _ => flushed1 V c t) cover1

end Cert.KernelIdeal.Hand

end
-- ==== Proof.Region2.lean ====
/-
  Region 2 (the second layer's linear transform): the array its write-backs leave.

  The grid has ten points; point t stages rows 5000 t … 5000 t + 4999 of the left factor and the whole weight, and writes
  back the product of the two into rows 5000 t … of the result. A product's entry reads only its own row of the left
  factor, so each block written back is the block of the whole product, and the ten blocks cover the result array.
-/
import proofs.«176664_j20263655703368_2_alg».proof.Proof.Gen.KernelIdeal.Frame
import proofs.«176664_j20263655703368_2_alg».proof.Proof.MatProduct
import Idealize.ShloMosaic.Lib.Pipeline.Value

set_option maxRecDepth 16384

noncomputable section

namespace Cert.KernelIdeal.Hand

open Cert.KernelIdeal Cert.KernelIdeal.Gen Cert.Hand Cert.ProductAt
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the left factor's and the result's windows sit at block row t, the
    weight's at its one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left factor's block at point t is rows 5000 t … of its array. -/
theorem blk2_0_at (c : Dev nD) (t : Fin cfg2.N) (y : S5000x96.Idx) (i : S50000x96.Idx)
    (h0 : (i 0).val = 5000 * t.val + (y 0).val) (h1 : (i 1).val = (y 1).val) :
    (iblk2 V c 0 t : Vec Ideal S5000x96 .f32) y = (V c main_v46 : S50000x96.Idx → EReal) i := by
  obtain ⟨e0, e1, -⟩ := idx2 t
  unfold iblk2
  rw [View.read_apply]
  show (V c main_v46 : S50000x96.Idx → EReal) _ = (V c main_v46 : S50000x96.Idx → EReal) _
  refine congrArg _ (funext fun a => Fin.ext ?_)
  match a with
  | ⟨0, _⟩ => show win2_0.index t 0 * 5000 + 1 * (y 0).val = (i 0).val; rw [e0, h0]; omega
  | ⟨1, _⟩ => show win2_0.index t 1 * 96 + 1 * (y 1).val = (i 1).val; rw [e1, h1]; omega

/-- The weight's block at every point is the whole weight. -/
theorem blk2_1_at (c : Dev nD) (t : Fin cfg2.N) (y : S96x40.Idx) (i : S96x40.Idx)
    (h0 : (i 0).val = (y 0).val) (h1 : (i 1).val = (y 1).val) :
    (iblk2 V c 1 t : Vec Ideal S96x40 .f32) y = (V c main_arg4 : S96x40.Idx → EReal) i := by
  obtain ⟨-, -, e2, e3, -⟩ := idx2 t
  unfold iblk2
  rw [View.read_apply]
  show (V c main_arg4 : S96x40.Idx → EReal) _ = (V c main_arg4 : S96x40.Idx → EReal) _
  refine congrArg _ (funext fun a => Fin.ext ?_)
  match a with
  | ⟨0, _⟩ => show win2_1.index t 0 * 96 + 1 * (y 0).val = (i 0).val; rw [e2, h0]; omega
  | ⟨1, _⟩ => show win2_1.index t 1 * 40 + 1 * (y 1).val = (i 1).val; rw [e3, h1]; omega

/-- What point t writes back is block t of the whole product of the two arrays as the region finds them. -/
theorem flushed2 (c : Dev nD) (t : Fin cfg2.N) :
    (dat2 V c).flushed 2 t = ((cfg2.win 2).blk t).view.read (Elt Ideal)
      (rowsTimes (V c main_v46 : S50000x96.Idx → EReal) (V c main_arg4 : S96x40.Idx → EReal) : S50000x40.Idx → EReal) := by
  show (cfg2.win 2).cut (grid2.coords t) ((dat2 V c).after 2 t) = _
  rw [after2_2]
  unfold out2_2
  rw [View.canon_unit_zero hz2]
  simp only [View.ld_unit_zero (S := S5000x96) hz2, View.ld_unit_zero (S := S96x40) hz2]
  rw [pay2_eq]
  obtain ⟨-, -, -, -, e4, e5⟩ := idx2 t
  funext j
  show rowsTimes (iblk2 V c 0 t : Vec Ideal S5000x96 .f32) (iblk2 V c 1 t : Vec Ideal S96x40 .f32) j
    = rowsTimes (V c main_v46 : S50000x96.Idx → EReal) (V c main_arg4 : S96x40.Idx → EReal) (((cfg2.win 2).blk t).view.emb j)
  rw [rowsTimes_apply, rowsTimes_apply]
  refine Finset.sum_congr rfl fun k _ => ?_
  refine congrArg₂ (· * ·) (blk2_0_at V c t _ _ ?_ ?_) (blk2_1_at V c t _ _ ?_ ?_)
  · show win2_2.index t 0 * 5000 + 1 * (j 0).val = 5000 * t.val + (j 0).val; rw [e4]; omega
  · rfl
  · rfl
  · show win2_2.index t 1 * 40 + 1 * (j 1).val = (j 1).val; rw [e5]; omega

/-- An index of the result array is in point t's block iff each coordinate is in the block's range on its axis. -/
theorem mem_blk2 (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v47).slice (win2_2.rect t)).set ↔ _
  rw [View.set_slice_whole, Rect.mem_set_unit]
  exact Iff.rfl

/-- Row r of the result array is written back by the point r / 5000. -/
theorem cover2 (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  have hN : cfg2.N = 10 := N_2
  have ht : (i 0).val / 5000 < cfg2.N := by rw [hN]; omega
  obtain ⟨-, -, -, -, e4, e5⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ 1 * 40 ≤ (i 1).val ∧ (i 1).val < win2_2.index ⟨(i 0).val / 5000, ht⟩ 1 * 40 + 40
    rw [e5]; omega

/-- The result array after the region: the whole product of the two arrays as the region finds them. -/
theorem final2 (c : Dev nD) : (dat2 V c).arrAt 2 cfg2.N
    = (rowsTimes (V c main_v46 : S50000x96.Idx → EReal) (V c main_arg4 : S96x40.Idx → EReal) : S50000x40.Idx → EReal) :=
  (dat2 V c).arrAt_eq_of_cover 2 _ (fun t _ => flushed2 V c t) cover2

end Cert.KernelIdeal.Hand

end
-- ==== Proof.Region3.lean ====
/-
  Region 3 (the second layer's bias): the array its write-backs leave.

  The grid has ten points; point t stages rows 5000 t … 5000 t + 4999 of the aggregate and the one staged bias row, and
  writes back the block's rows with the bias row added into rows 5000 t … of the result. The operation is
  entry by entry, so each block written back is the block of the whole-array operation, and the ten blocks cover the
  result array.
-/
import proofs.«176664_j20263655703368_2_alg».proof.Proof.Gen.KernelIdeal.Frame
import proofs.«176664_j20263655703368_2_alg».proof.Proof.BiasAdd
import Idealize.ShloMosaic.Lib.Pipeline.Value

set_option maxRecDepth 16384

noncomputable section

namespace Cert.KernelIdeal.Hand

open Cert.KernelIdeal Cert.KernelIdeal.Gen Cert.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the grid: the aggregate's and the result's windows sit at block row t, the
    bias row's at its one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The aggregate's block at point t is rows 5000 t … of its array. -/
theorem blk3_0_at (c : Dev nD) (t : Fin cfg3.N) (y : S5000x40.Idx) (i : S50000x40.Idx)
    (h0 : (i 0).val = 5000 * t.val + (y 0).val) (h1 : (i 1).val = (y 1).val) :
    (iblk3 V c 0 t : Vec Ideal S5000x40 .f32) y = (V c main_v60 : S50000x40.Idx → EReal) i := by
  obtain ⟨e0, e1, -⟩ := idx3 t
  unfold iblk3
  rw [View.read_apply]
  show (V c main_v60 : S50000x40.Idx → EReal) _ = (V c main_v60 : S50000x40.Idx → EReal) _
  refine congrArg _ (funext fun a => Fin.ext ?_)
  match a with
  | ⟨0, _⟩ => show win3_0.index t 0 * 5000 + 1 * (y 0).val = (i 0).val; rw [e0, h0]; omega
  | ⟨1, _⟩ => show win3_0.index t 1 * 40 + 1 * (y 1).val = (i 1).val; rw [e1, h1]; omega

/-- The bias row's block at every point is the whole [1, 40] array. -/
theorem blk3_1_at (c : Dev nD) (t : Fin cfg3.N) (y : S1x40.Idx) (i : S1x40.Idx)
    (h0 : (i 0).val = (y 0).val) (h1 : (i 1).val = (y 1).val) :
    (iblk3 V c 1 t : Vec Ideal S1x40 .f32) y = (V c main_v61 : S1x40.Idx → EReal) i := by
  obtain ⟨-, -, e2, e3, -⟩ := idx3 t
  unfold iblk3
  rw [View.read_apply]
  show (V c main_v61 : S1x40.Idx → EReal) _ = (V c main_v61 : S1x40.Idx → EReal) _
  refine congrArg _ (funext fun a => Fin.ext ?_)
  match a with
  | ⟨0, _⟩ => show win3_1.index t 0 * 1 + 1 * (y 0).val = (i 0).val; rw [e2, h0]; omega
  | ⟨1, _⟩ => show win3_1.index t 1 * 40 + 1 * (y 1).val = (i 1).val; rw [e3, h1]; omega

/-- What point t writes back is block t of the whole-array operation on the two arrays as the region finds them. -/
theorem flushed3 (c : Dev nD) (t : Fin cfg3.N) :
    (dat3 V c).flushed 2 t = ((cfg3.win 2).blk t).view.read (Elt Ideal)
      (addRow (V c main_v60 : S50000x40.Idx → EReal) (V c main_v61 : S1x40.Idx → EReal) : S50000x40.Idx → EReal) := by
  show (cfg3.win 2).cut (grid3.coords t) ((dat3 V c).after 2 t) = _
  rw [after3_2]
  unfold out3_2
  rw [View.canon_unit_zero hz3]
  simp only [View.ld_unit_zero (S := S5000x40) hz3, View.ld_unit_zero (S := S1x40) hz3]
  rw [pay3_eq]
  obtain ⟨-, -, -, -, e4, e5⟩ := idx3 t
  funext j
  show addRow (iblk3 V c 0 t : Vec Ideal S5000x40 .f32) (iblk3 V c 1 t : Vec Ideal S1x40 .f32) j
    = addRow (V c main_v60 : S50000x40.Idx → EReal) (V c main_v61 : S1x40.Idx → EReal) (((cfg3.win 2).blk t).view.emb j)
  rw [addRow_apply, addRow_apply]
  refine (congrArg₂ (· + ·) (blk3_0_at V c t _ _ ?_ ?_) (blk3_1_at V c t _ _ ?_ ?_))
  · show win3_2.index t 0 * 5000 + 1 * (j 0).val = 5000 * t.val + (j 0).val; rw [e4]; omega
  · show win3_2.index t 1 * 40 + 1 * (j 1).val = (j 1).val; rw [e5]; omega
  · rfl
  · show win3_2.index t 1 * 40 + 1 * (j 1).val = (j 1).val; rw [e5]; omega

/-- An index of the result array is in point t's block iff each coordinate is in the block's range on its axis. -/
theorem mem_blk3 (t : Fin cfg3.N) (i : S50000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v62).slice (win3_2.rect t)).set ↔ _
  rw [View.set_slice_whole, Rect.mem_set_unit]
  exact Iff.rfl

/-- Row r of the result array is written back by the point r / 5000. -/
theorem cover3 (i : S50000x40.Idx) : ∃ t : Fin cfg3.N, (cfg3.win 2).flush t = true ∧ i ∈ ((cfg3.win 2).blk t).view.set := by
  have hi0 : (i 0).val < 50000 := (i 0).isLt
  have hi1 : (i 1).val < 40 := (i 1).isLt
  have hN : cfg3.N = 10 := N_3
  have ht : (i 0).val / 5000 < cfg3.N := by rw [hN]; omega
  obtain ⟨-, -, -, -, e4, e5⟩ := idx3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ 0 * 5000 ≤ (i 0).val ∧ (i 0).val < win3_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ 1 * 40 ≤ (i 1).val ∧ (i 1).val < win3_2.index ⟨(i 0).val / 5000, ht⟩ 1 * 40 + 40
    rw [e5]; omega

/-- The result array after the region: the whole-array operation on the two arrays as the region finds them. -/
theorem final3 (c : Dev nD) : (dat3 V c).arrAt 2 cfg3.N
    = (addRow (V c main_v60 : S50000x40.Idx → EReal) (V c main_v61 : S1x40.Idx → EReal) : S50000x40.Idx → EReal) :=
  (dat3 V c).arrAt_eq_of_cover 2 _ (fun t _ => flushed3 V c t) cover3

end Cert.KernelIdeal.Hand

end
-- ==== Proof.Stages.lean ====
/-
  The host stages of the two programs, named.

  Both programs compute, with the same host operations, the edges' end nodes (the edge list followed by a self-loop per
  node), the edge weights d(src)^(-1/2) · d(dst)^(-1/2) from the node degrees, and for each layer the aggregation "gather
  the source rows, scale by the weight, add into the destination rows". The kernel's program gathers from an array stored
  in a 16-bit float format and widens it, which is the identity on extended reals; otherwise the two chains are the same
  operations with the same dimension numbers, so each stage of one program is the same function as the other's.
-/
import proofs.«176664_j20263655703368_2_alg».proof.Proof.Gen.KernelIdeal
import proofs.«176664_j20263655703368_2_alg».proof.Proof.Gen.ReferenceIdeal
import Idealize.ShloMosaic.PureOps.Ideal

noncomputable section

namespace Cert.KernelIdeal.Hand

open Cert.KernelIdeal Cert.KernelIdeal.Facts₀ Idealize.ShloMosaic

/-- The source node of every edge: row 0 of the edge list, then one self-loop per node. -/
def srcOf (e : IVec S2x800000 32) : IVec S850000 32 :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The destination node of every edge: row 1 of the edge list, then one self-loop per node. -/
def dstOf (e : IVec S2x800000 32) : IVec S850000 32 :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- A node index as a gather's start index: a negative index counts from the end (50000 is added), as a column. -/
def wrapIdx (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The degree of every node: one added at its index for every edge that ends there. -/
def degOf (dst : IVec S850000 32) : FVec Ideal S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 dst) (broadcastInDim S850000 ![] bcast_S_S850000 (constant S_ .f32 0x3F800000#32))

/-- The inverse square root of the degree where it is positive, zero elsewhere. -/
def dinvOf (dst : IVec S850000 32) : FVec Ideal S50000 .f32 :=
  select (cmpf .ogt (degOf dst) (broadcastInDim S50000 ![] bcast_S_S50000 (constant S_ .f32 0x00000000#32))) (Host.rsqrt (degOf dst))
    (broadcastInDim S50000 ![] bcast_S_S50000 (constant S_ .f32 0x00000000#32))

/-- The weight of every edge: the product of the two end nodes' inverse square root degrees. -/
def edgeWeight (src dst : IVec S850000 32) : FVec Ideal S850000 .f32 :=
  mulf (Host.gather gather_S50000_S850000x1_S850000_n_0_n_n_0_1_1 (dinvOf dst) (wrapIdx src))
    (Host.gather gather_S50000_S850000x1_S850000_n_0_n_n_0_1_1 (dinvOf dst) (wrapIdx dst))

/-- The edge weights as a column. -/
def weightCol (ew : FVec Ideal S850000 .f32) : FVec Ideal S850000x1 .f32 :=
  broadcastInDim S850000x1 ![0] bcast_S850000_S850000x1_0 ew

/-- The first layer's aggregation: every edge gathers its source node's row of `h`, scales it by the edge's weight, and adds
    it into its destination node's row. -/
def aggregate96 (h : FVec Ideal S50000x96 .bf16) (src dst : IVec S850000 32) (wc : FVec Ideal S850000x1 .f32) : FVec Ideal S50000x96 .f32 :=
  Host.scatterAdd scatter_S50000x96_S850000x1_S850000x96_1_0_0_1 (broadcastInDim S50000x96 ![] bcast_S_S50000x96 (constant S_ .f32 0x00000000#32))
    (broadcastInDim S850000x1 ![0] bcast_S850000_S850000x1_0 dst)
    (mulf (extf .f32 (Host.gather gather_S50000x96_S850000x1_S850000x96_1_0_n_n_0_1_196 h (wrapIdx src)) bitsLt_bf16_f32)
      (broadcastInDim S850000x96 ![0, 1] bcast_S850000x1_S850000x96_0_1 wc))

/-- The second layer's aggregation, on rows of length 40. -/
def aggregate40 (h : FVec Ideal S50000x40 .bf16) (src dst : IVec S850000 32) (wc : FVec Ideal S850000x1 .f32) : FVec Ideal S50000x40 .f32 :=
  Host.scatterAdd scatter_S50000x40_S850000x1_S850000x40_1_0_0_1 (broadcastInDim S50000x40 ![] bcast_S_S50000x40 (constant S_ .f32 0x00000000#32))
    (broadcastInDim S850000x1 ![0] bcast_S850000_S850000x1_0 dst)
    (mulf (extf .f32 (Host.gather gather_S50000x40_S850000x1_S850000x40_1_0_n_n_0_1_140 h (wrapIdx src)) bitsLt_bf16_f32)
      (broadcastInDim S850000x40 ![0, 1] bcast_S850000x1_S850000x40_0_1 wc))

end Cert.KernelIdeal.Hand

namespace Cert.ReferenceIdeal.Hand

open Cert.ReferenceIdeal Cert.ReferenceIdeal.Facts₀ Idealize.ShloMosaic

/-- The source node of every edge: row 0 of the edge list, then one self-loop per node. -/
def srcOf (e : IVec S2x800000 32) : IVec S850000 32 :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The destination node of every edge: row 1 of the edge list, then one self-loop per node. -/
def dstOf (e : IVec S2x800000 32) : IVec S850000 32 :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- A node index as a gather's start index: a negative index counts from the end (50000 is added), as a column. -/
def wrapIdx (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The degree of every node: one added at its index for every edge that ends there. -/
def degOf (dst : IVec S850000 32) : FVec Ideal S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 dst) (broadcastInDim S850000 ![] bcast_S_S850000 (constant S_ .f32 0x3F800000#32))

/-- The inverse square root of the degree where it is positive, zero elsewhere. -/
def dinvOf (dst : IVec S850000 32) : FVec Ideal S50000 .f32 :=
  select (cmpf .ogt (degOf dst) (broadcastInDim S50000 ![] bcast_S_S50000 (constant S_ .f32 0x00000000#32))) (Host.rsqrt (degOf dst))
    (broadcastInDim S50000 ![] bcast_S_S50000 (constant S_ .f32 0x00000000#32))

/-- The weight of every edge: the product of the two end nodes' inverse square root degrees. -/
def edgeWeight (src dst : IVec S850000 32) : FVec Ideal S850000 .f32 :=
  mulf (Host.gather gather_S50000_S850000x1_S850000_n_0_n_n_0_1_1 (dinvOf dst) (wrapIdx src))
    (Host.gather gather_S50000_S850000x1_S850000_n_0_n_n_0_1_1 (dinvOf dst) (wrapIdx dst))

/-- The edge weights as a column. -/
def weightCol (ew : FVec Ideal S850000 .f32) : FVec Ideal S850000x1 .f32 :=
  broadcastInDim S850000x1 ![0] bcast_S850000_S850000x1_0 ew

/-- The first layer's aggregation: every edge gathers its source node's row of `h`, scales it by the edge's weight, and adds
    it into its destination node's row. -/
def aggregate96 (h : FVec Ideal S50000x96 .f32) (src dst : IVec S850000 32) (wc : FVec Ideal S850000x1 .f32) : FVec Ideal S50000x96 .f32 :=
  Host.scatterAdd scatter_S50000x96_S850000x1_S850000x96_1_0_0_1 (broadcastInDim S50000x96 ![] bcast_S_S50000x96 (constant S_ .f32 0x00000000#32))
    (broadcastInDim S850000x1 ![0] bcast_S850000_S850000x1_0 dst)
    (mulf (Host.gather gather_S50000x96_S850000x1_S850000x96_1_0_n_n_0_1_196 h (wrapIdx src))
      (broadcastInDim S850000x96 ![0, 1] bcast_S850000x1_S850000x96_0_1 wc))

/-- The second layer's aggregation, on rows of length 40. -/
def aggregate40 (h : FVec Ideal S50000x40 .f32) (src dst : IVec S850000 32) (wc : FVec Ideal S850000x1 .f32) : FVec Ideal S50000x40 .f32 :=
  Host.scatterAdd scatter_S50000x40_S850000x1_S850000x40_1_0_0_1 (broadcastInDim S50000x40 ![] bcast_S_S50000x40 (constant S_ .f32 0x00000000#32))
    (broadcastInDim S850000x1 ![0] bcast_S850000_S850000x1_0 dst)
    (mulf (Host.gather gather_S50000x40_S850000x1_S850000x40_1_0_n_n_0_1_140 h (wrapIdx src))
      (broadcastInDim S850000x40 ![0, 1] bcast_S850000x1_S850000x40_0_1 wc))

end Cert.ReferenceIdeal.Hand

namespace Cert.Hand

open Idealize.ShloMosaic

/-! ## Each stage is one function in the two programs -/

theorem srcOf_eq (e : IVec Cert.KernelIdeal.S2x800000 32) : Cert.ReferenceIdeal.Hand.srcOf e = Cert.KernelIdeal.Hand.srcOf e := rfl
theorem dstOf_eq (e : IVec Cert.KernelIdeal.S2x800000 32) : Cert.ReferenceIdeal.Hand.dstOf e = Cert.KernelIdeal.Hand.dstOf e := rfl
theorem wrapIdx_eq (v : IVec Cert.KernelIdeal.S850000 32) : Cert.ReferenceIdeal.Hand.wrapIdx v = Cert.KernelIdeal.Hand.wrapIdx v := rfl
theorem degOf_eq (v : IVec Cert.KernelIdeal.S850000 32) : Cert.ReferenceIdeal.Hand.degOf v = Cert.KernelIdeal.Hand.degOf v := rfl
theorem dinvOf_eq (v : IVec Cert.KernelIdeal.S850000 32) : Cert.ReferenceIdeal.Hand.dinvOf v = Cert.KernelIdeal.Hand.dinvOf v := by
  unfold Cert.ReferenceIdeal.Hand.dinvOf Cert.KernelIdeal.Hand.dinvOf
  rw [degOf_eq]
theorem edgeWeight_eq (s d : IVec Cert.KernelIdeal.S850000 32) : Cert.ReferenceIdeal.Hand.edgeWeight s d = Cert.KernelIdeal.Hand.edgeWeight s d := by
  unfold Cert.ReferenceIdeal.Hand.edgeWeight Cert.KernelIdeal.Hand.edgeWeight
  rw [dinvOf_eq, wrapIdx_eq, wrapIdx_eq]
  rfl
theorem weightCol_eq (w : FVec Ideal Cert.KernelIdeal.S850000 .f32) : Cert.ReferenceIdeal.Hand.weightCol w = Cert.KernelIdeal.Hand.weightCol w := rfl
/-- Widening the gathered rows changes nothing on extended reals: the two aggregations are one function. -/
theorem aggregate96_eq (h : FVec Ideal Cert.KernelIdeal.S50000x96 .f32) (s d : IVec Cert.KernelIdeal.S850000 32) (wc : FVec Ideal Cert.KernelIdeal.S850000x1 .f32) :
    Cert.ReferenceIdeal.Hand.aggregate96 h s d wc = Cert.KernelIdeal.Hand.aggregate96 h s d wc := by
  unfold Cert.ReferenceIdeal.Hand.aggregate96 Cert.KernelIdeal.Hand.aggregate96
  rw [wrapIdx_eq]
  rfl
theorem aggregate40_eq (h : FVec Ideal Cert.KernelIdeal.S50000x40 .f32) (s d : IVec Cert.KernelIdeal.S850000 32) (wc : FVec Ideal Cert.KernelIdeal.S850000x1 .f32) :
    Cert.ReferenceIdeal.Hand.aggregate40 h s d wc = Cert.KernelIdeal.Hand.aggregate40 h s d wc := by
  unfold Cert.ReferenceIdeal.Hand.aggregate40 Cert.KernelIdeal.Hand.aggregate40
  rw [wrapIdx_eq]
  rfl

end Cert.Hand

end
-- ==== Proof.KernelValue.lean ====
/-
  The idealized kernel's result as one function of its six arguments.

  The program's buffer contents at its nine segment boundaries are a fold from the launch memory. Read at the buffers that
  matter: the first stretch of host operations leaves the edges' end nodes and the edge weights; each linear-transform
  region leaves the product of its two arrays; each stretch between regions leaves the aggregation of that product along the
  edges and the layer's bias as a row; each epilogue region leaves the aggregate with the bias row added (and, in the first
  layer, the maximum with zero). No segment writes an argument, the end nodes or the weights after they are made, so each
  later segment finds them as the first stretch left them.
-/
import proofs.«176664_j20263655703368_2_alg».proof.Proof.Gen.KernelIdeal.Frame
import proofs.«176664_j20263655703368_2_alg».proof.Proof.Region0
import proofs.«176664_j20263655703368_2_alg».proof.Proof.Region1
import proofs.«176664_j20263655703368_2_alg».proof.Proof.Region2
import proofs.«176664_j20263655703368_2_alg».proof.Proof.Region3
import proofs.«176664_j20263655703368_2_alg».proof.Proof.Stages
import Idealize.ShloMosaic.Lib.StableHlo.Run

set_option maxRecDepth 16384

noncomputable section

namespace Cert.KernelIdeal.Hand

open Cert.KernelIdeal Cert.KernelIdeal.Gen Cert.KernelIdeal.Facts₀ Cert.Hand
open Idealize.ShloMosaic Idealize.ShloMosaic.TcCoe Idealize.SL.Sem

variable (m : (ℓ : Loc nD τ sig) → Buf (Elt Ideal) ℓ) (ρ : Dev nD → PrngReg)

/-- A buffer that no operation of a stretch of host operations writes holds after the stretch what it held before. -/
macro "kept_through " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## The first stretch: the end nodes, the weights; the arguments untouched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by kept_through hostOps0_2
    _ = W1 m ρ c (Proc.devRef .tc main_arg0) := by kept_through hostOps0_1
    _ = W0 m ρ c (Proc.devRef .tc main_arg0) := by kept_through hostOps0
    _ = m ((c : Thread nD τ).loc main_arg0) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by kept_through hostOps0_2
    _ = W1 m ρ c (Proc.devRef .tc main_arg2) := by kept_through hostOps0_1
    _ = W0 m ρ c (Proc.devRef .tc main_arg2) := by kept_through hostOps0
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by kept_through hostOps0_2
    _ = W1 m ρ c (Proc.devRef .tc main_arg3) := by kept_through hostOps0_1
    _ = W0 m ρ c (Proc.devRef .tc main_arg3) := by kept_through hostOps0
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by kept_through hostOps0_2
    _ = W1 m ρ c (Proc.devRef .tc main_arg4) := by kept_through hostOps0_1
    _ = W0 m ρ c (Proc.devRef .tc main_arg4) := by kept_through hostOps0
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by kept_through hostOps0_2
    _ = W1 m ρ c (Proc.devRef .tc main_arg5) := by kept_through hostOps0_1
    _ = W0 m ρ c (Proc.devRef .tc main_arg5) := by kept_through hostOps0
    _ = m ((c : Thread nD τ).loc main_arg5) := rfl

set_option maxHeartbeats 4000000 in
/-- The source nodes after the first stretch. -/
theorem W3_src (c : Dev nD) : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  after_results_simp <;> rfl

set_option maxHeartbeats 4000000 in
/-- The destination nodes after the first stretch. -/
theorem W3_dst (c : Dev nD) : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  after_results_simp <;> rfl

/-! The weights are made in three steps: the degrees and their inverse square roots where positive (the first eighteen
    operations), the choice of zero elsewhere (the outlined `where`), the gathers at the two end nodes and the product. -/

set_option maxHeartbeats 4000000 in
theorem W1_src (c : Dev nD) : W1 m ρ c (Proc.devRef .tc main_v3) = srcOf (m ((c : Thread nD τ).loc main_arg1)) := by
  show StableHlo.after hostOps0 (W0 m ρ c) (Proc.devRef .tc main_v3) = _
  after_results_simp <;> rfl

set_option maxHeartbeats 4000000 in
theorem W1_dst (c : Dev nD) : W1 m ρ c (Proc.devRef .tc main_v6) = dstOf (m ((c : Thread nD τ).loc main_arg1)) := by
  show StableHlo.after hostOps0 (W0 m ρ c) (Proc.devRef .tc main_v6) = _
  after_results_simp <;> rfl

set_option maxHeartbeats 4000000 in
theorem W1_pos (c : Dev nD) : W1 m ρ c (Proc.devRef .tc main_v12)
    = cmpf .ogt (degOf (dstOf (m ((c : Thread nD τ).loc main_arg1)))) (broadcastInDim S50000 ![] Facts₀.bcast_S_S50000 (constant S_ .f32 0x00000000#32)) := by
  show StableHlo.after hostOps0 (W0 m ρ c) (Proc.devRef .tc main_v12) = _
  after_results_simp <;> rfl

set_option maxHeartbeats 4000000 in
theorem W1_rsqrt (c : Dev nD) : W1 m ρ c (Proc.devRef .tc main_v13) = Host.rsqrt (degOf (dstOf (m ((c : Thread nD τ).loc main_arg1)))) := by
  show StableHlo.after hostOps0 (W0 m ρ c) (Proc.devRef .tc main_v13) = _
  after_results_simp <;> rfl

set_option maxHeartbeats 4000000 in
theorem W1_zero (c : Dev nD) : W1 m ρ c (Proc.devRef .tc main_cst_2) = constant (F := Ideal) S_ .f32 0x00000000#32 := by
  show StableHlo.after hostOps0 (W0 m ρ c) (Proc.devRef .tc main_cst_2) = _
  after_results_simp <;> rfl

/-- The outlined `where`: the first value where the mask holds, the broadcast scalar elsewhere. -/
theorem where_stretch (V : Valuation τ sig (Elt Ideal)) : StableHlo.after hostOps0_1 V (Proc.devRef .tc main_v14)
    = select (V (Proc.devRef .tc main_v12) : IVec S50000 1) (V (Proc.devRef .tc main_v13) : FVec Ideal S50000 .f32)
        (broadcastInDim S50000 ![] Facts₀.bcast_S_S50000 (V (Proc.devRef .tc main_cst_2) : FVec Ideal S_ .f32)) := by
  after_results_simp <;> rfl

theorem W2_dinv (c : Dev nD) : W2 m ρ c (Proc.devRef .tc main_v14) = dinvOf (dstOf (m ((c : Thread nD τ).loc main_arg1))) := by
  show StableHlo.after hostOps0_1 (W1 m ρ c) (Proc.devRef .tc main_v14) = _
  rw [where_stretch, W1_pos, W1_rsqrt, W1_zero]
  rfl

theorem W2_src (c : Dev nD) : W2 m ρ c (Proc.devRef .tc main_v3) = srcOf (m ((c : Thread nD τ).loc main_arg1)) :=
  (show W2 m ρ c (Proc.devRef .tc main_v3) = W1 m ρ c (Proc.devRef .tc main_v3) by kept_through hostOps0_1).trans (W1_src m ρ c)

theorem W2_dst (c : Dev nD) : W2 m ρ c (Proc.devRef .tc main_v6) = dstOf (m ((c : Thread nD τ).loc main_arg1)) :=
  (show W2 m ρ c (Proc.devRef .tc main_v6) = W1 m ρ c (Proc.devRef .tc main_v6) by kept_through hostOps0_1).trans (W1_dst m ρ c)

set_option maxHeartbeats 4000000 in
/-- The last twenty operations of the first stretch: the two gathers of the node factors at the wrapped end nodes, their
    product, as a column. -/
theorem weight_stretch (V : Valuation τ sig (Elt Ideal)) : StableHlo.after hostOps0_2 V (Proc.devRef .tc main_v30)
    = weightCol (mulf
        (Host.gather gather_S50000_S850000x1_S850000_n_0_n_n_0_1_1 (V (Proc.devRef .tc main_v14) : FVec Ideal S50000 .f32) (wrapIdx (V (Proc.devRef .tc main_v3))))
        (Host.gather gather_S50000_S850000x1_S850000_n_0_n_n_0_1_1 (V (Proc.devRef .tc main_v14) : FVec Ideal S50000 .f32) (wrapIdx (V (Proc.devRef .tc main_v6))))) := by
  after_results_simp <;> rfl

/-- The edge weights, as a column, after the first stretch. -/
theorem W3_wcol (c : Dev nD) : W3 m ρ c (Proc.devRef .tc main_v30)
    = weightCol (edgeWeight (srcOf (m ((c : Thread nD τ).loc main_arg1))) (dstOf (m ((c : Thread nD τ).loc main_arg1)))) := by
  show StableHlo.after hostOps0_2 (W2 m ρ c) (Proc.devRef .tc main_v30) = _
  rw [weight_stretch, W2_dinv, W2_src, W2_dst]
  rfl

/-! ## Region 0: the first layer's product -/

theorem W4_prod (c : Dev nD) : W4 m ρ c (Proc.devRef .tc main_v31)
    = (rowsTimes (W3 m ρ c (Proc.devRef .tc main_arg0) : S50000x256.Idx → EReal) (W3 m ρ c (Proc.devRef .tc main_arg2) : S256x96.Idx → EReal) : S50000x96.Idx → EReal) :=
  (W4_arr m ρ c 2).trans (final0 (V3 m ρ) c)
theorem W4_main_v3 (c : Dev nD) : W4 m ρ c (Proc.devRef .tc main_v3) = W3 m ρ c (Proc.devRef .tc main_v3) := W4_of_ne m ρ c main_v3 (by decide)
theorem W4_main_v6 (c : Dev nD) : W4 m ρ c (Proc.devRef .tc main_v6) = W3 m ρ c (Proc.devRef .tc main_v6) := W4_of_ne m ρ c main_v6 (by decide)
theorem W4_main_v30 (c : Dev nD) : W4 m ρ c (Proc.devRef .tc main_v30) = W3 m ρ c (Proc.devRef .tc main_v30) := W4_of_ne m ρ c main_v30 (by decide)
theorem W4_main_arg3 (c : Dev nD) : W4 m ρ c (Proc.devRef .tc main_arg3) = W3 m ρ c (Proc.devRef .tc main_arg3) := W4_of_ne m ρ c main_arg3 (by decide)
theorem W4_main_arg4 (c : Dev nD) : W4 m ρ c (Proc.devRef .tc main_arg4) = W3 m ρ c (Proc.devRef .tc main_arg4) := W4_of_ne m ρ c main_arg4 (by decide)
theorem W4_main_arg5 (c : Dev nD) : W4 m ρ c (Proc.devRef .tc main_arg5) = W3 m ρ c (Proc.devRef .tc main_arg5) := W4_of_ne m ρ c main_arg5 (by decide)

/-! ## The stretch between regions 0 and 1: the first aggregation, the bias as a row -/

set_option maxHeartbeats 4000000 in
theorem W5_agg (c : Dev nD) : W5 m ρ c (Proc.devRef .tc main_v44)
    = aggregate96 (W4 m ρ c (Proc.devRef .tc main_v31)) (W4 m ρ c (Proc.devRef .tc main_v3)) (W4 m ρ c (Proc.devRef .tc main_v6)) (W4 m ρ c (Proc.devRef .tc main_v30)) := by
  show StableHlo.after hostOps1 (W4 m ρ c) (Proc.devRef .tc main_v44) = _
  after_results_simp <;> rfl

set_option maxHeartbeats 4000000 in
theorem W5_bias (c : Dev nD) : W5 m ρ c (Proc.devRef .tc main_v45)
    = shapeCast S1x96 (W4 m ρ c (Proc.devRef .tc main_arg3) : FVec Ideal S96 .f32) Facts₀.shapeCasts_S96_S1x96 := by
  show StableHlo.after hostOps1 (W4 m ρ c) (Proc.devRef .tc main_v45) = _
  after_results_simp <;> rfl
theorem W5_main_v3 (c : Dev nD) : W5 m ρ c (Proc.devRef .tc main_v3) = W4 m ρ c (Proc.devRef .tc main_v3) := by kept_through hostOps1
theorem W5_main_v6 (c : Dev nD) : W5 m ρ c (Proc.devRef .tc main_v6) = W4 m ρ c (Proc.devRef .tc main_v6) := by kept_through hostOps1
theorem W5_main_v30 (c : Dev nD) : W5 m ρ c (Proc.devRef .tc main_v30) = W4 m ρ c (Proc.devRef .tc main_v30) := by kept_through hostOps1
theorem W5_main_arg4 (c : Dev nD) : W5 m ρ c (Proc.devRef .tc main_arg4) = W4 m ρ c (Proc.devRef .tc main_arg4) := by kept_through hostOps1
theorem W5_main_arg5 (c : Dev nD) : W5 m ρ c (Proc.devRef .tc main_arg5) = W4 m ρ c (Proc.devRef .tc main_arg5) := by kept_through hostOps1

/-! ## Region 1: the first layer's bias and relu -/

theorem W6_act (c : Dev nD) : W6 m ρ c (Proc.devRef .tc main_v46)
    = (addRowRelu (W5 m ρ c (Proc.devRef .tc main_v44) : S50000x96.Idx → EReal) (W5 m ρ c (Proc.devRef .tc main_v45) : S1x96.Idx → EReal) : S50000x96.Idx → EReal) :=
  (W6_arr m ρ c 2).trans (final1 (V5 m ρ) c)
theorem W6_main_v3 (c : Dev nD) : W6 m ρ c (Proc.devRef .tc main_v3) = W5 m ρ c (Proc.devRef .tc main_v3) := W6_of_ne m ρ c main_v3 (by decide)
theorem W6_main_v6 (c : Dev nD) : W6 m ρ c (Proc.devRef .tc main_v6) = W5 m ρ c (Proc.devRef .tc main_v6) := W6_of_ne m ρ c main_v6 (by decide)
theorem W6_main_v30 (c : Dev nD) : W6 m ρ c (Proc.devRef .tc main_v30) = W5 m ρ c (Proc.devRef .tc main_v30) := W6_of_ne m ρ c main_v30 (by decide)
theorem W6_main_arg4 (c : Dev nD) : W6 m ρ c (Proc.devRef .tc main_arg4) = W5 m ρ c (Proc.devRef .tc main_arg4) := W6_of_ne m ρ c main_arg4 (by decide)
theorem W6_main_arg5 (c : Dev nD) : W6 m ρ c (Proc.devRef .tc main_arg5) = W5 m ρ c (Proc.devRef .tc main_arg5) := W6_of_ne m ρ c main_arg5 (by decide)

/-! ## Region 2: the second layer's product -/

theorem W7_prod (c : Dev nD) : W7 m ρ c (Proc.devRef .tc main_v47)
    = (rowsTimes (W6 m ρ c (Proc.devRef .tc main_v46) : S50000x96.Idx → EReal) (W6 m ρ c (Proc.devRef .tc main_arg4) : S96x40.Idx → EReal) : S50000x40.Idx → EReal) :=
  (W7_arr m ρ c 2).trans (final2 (V6 m ρ) c)
theorem W7_main_v3 (c : Dev nD) : W7 m ρ c (Proc.devRef .tc main_v3) = W6 m ρ c (Proc.devRef .tc main_v3) := W7_of_ne m ρ c main_v3 (by decide)
theorem W7_main_v6 (c : Dev nD) : W7 m ρ c (Proc.devRef .tc main_v6) = W6 m ρ c (Proc.devRef .tc main_v6) := W7_of_ne m ρ c main_v6 (by decide)
theorem W7_main_v30 (c : Dev nD) : W7 m ρ c (Proc.devRef .tc main_v30) = W6 m ρ c (Proc.devRef .tc main_v30) := W7_of_ne m ρ c main_v30 (by decide)
theorem W7_main_arg5 (c : Dev nD) : W7 m ρ c (Proc.devRef .tc main_arg5) = W6 m ρ c (Proc.devRef .tc main_arg5) := W7_of_ne m ρ c main_arg5 (by decide)

/-! ## The stretch between regions 2 and 3: the second aggregation, the bias as a row -/

set_option maxHeartbeats 4000000 in
theorem W8_agg (c : Dev nD) : W8 m ρ c (Proc.devRef .tc main_v60)
    = aggregate40 (W7 m ρ c (Proc.devRef .tc main_v47)) (W7 m ρ c (Proc.devRef .tc main_v3)) (W7 m ρ c (Proc.devRef .tc main_v6)) (W7 m ρ c (Proc.devRef .tc main_v30)) := by
  show StableHlo.after hostOps3 (W7 m ρ c) (Proc.devRef .tc main_v60) = _
  after_results_simp <;> rfl

set_option maxHeartbeats 4000000 in
theorem W8_bias (c : Dev nD) : W8 m ρ c (Proc.devRef .tc main_v61)
    = shapeCast S1x40 (W7 m ρ c (Proc.devRef .tc main_arg5) : FVec Ideal S40 .f32) Facts₀.shapeCasts_S40_S1x40 := by
  show StableHlo.after hostOps3 (W7 m ρ c) (Proc.devRef .tc main_v61) = _
  after_results_simp <;> rfl

/-! ## Region 3: the second layer's bias -/

theorem W9_out (c : Dev nD) : W9 m ρ c (Proc.devRef .tc main_v62)
    = (addRow (W8 m ρ c (Proc.devRef .tc main_v60) : S50000x40.Idx → EReal) (W8 m ρ c (Proc.devRef .tc main_v61) : S1x40.Idx → EReal) : S50000x40.Idx → EReal) :=
  (W9_arr m ρ c 2).trans (final3 (V8 m ρ) c)

/-! ## The whole fold -/

/-- The two layers as one function of the six argument arrays: per layer the product with the weight, the aggregation
    along the edges, the bias row added; between the layers the maximum with zero. -/
def kernelOut (x : S50000x256.Idx → EReal) (e : IVec S2x800000 32) (w1 : S256x96.Idx → EReal) (b1 : FVec Ideal S96 .f32)
    (w2 : S96x40.Idx → EReal) (b2 : FVec Ideal S40 .f32) : S50000x40.Idx → EReal :=
  addRow
    (aggregate40
      (rowsTimes
        (addRowRelu
          (aggregate96 (rowsTimes x w1 : S50000x96.Idx → EReal) (srcOf e) (dstOf e) (weightCol (edgeWeight (srcOf e) (dstOf e))))
          (shapeCast S1x96 b1 Facts₀.shapeCasts_S96_S1x96) : S50000x96.Idx → EReal)
        w2 : S50000x40.Idx → EReal)
      (srcOf e) (dstOf e) (weightCol (edgeWeight (srcOf e) (dstOf e))))
    (shapeCast S1x40 b2 Facts₀.shapeCasts_S40_S1x40)

/-- The result buffer's last contents are that function of the launch memory's arguments. -/
theorem W9_result (c : Dev nD) : W9 m ρ c (Proc.devRef .tc main_v62)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W9_out, W8_agg, W8_bias, W7_prod, W7_main_v3, W7_main_v6, W7_main_v30, W7_main_arg5,
    W6_act, W6_main_v3, W6_main_v6, W6_main_v30, W6_main_arg4, W6_main_arg5,
    W5_agg, W5_bias, W5_main_v3, W5_main_v6, W5_main_v30, W5_main_arg4, W5_main_arg5,
    W4_prod, W4_main_v3, W4_main_v6, W4_main_v30, W4_main_arg3, W4_main_arg4, W4_main_arg5,
    W3_src, W3_dst, W3_wcol, W3_main_arg0, W3_main_arg2, W3_main_arg3, W3_main_arg4, W3_main_arg5]
  rfl

end Cert.KernelIdeal.Hand

end
-- ==== Proof.RefValue.lean ====
/-
  The reference's result as one function of its six arguments, and the bridge to the kernel's.

  The reference's run ends with its result at the composed term of its host operations. Grouped by stage that term is:
  per layer the dot_general with the weight, the aggregation along the edges, the bias broadcast and added; between the
  layers the maximum with a zero array. Each stage is the kernel's stage as a function: a dot_general and a block-wise
  product into zero are the same sums, the broadcast-and-add epilogues add the same row, and the host stages are the
  same operations. So the two results are one function of the arguments.
-/
import proofs.«176664_j20263655703368_2_alg».proof.Proof.RefRun
import proofs.«176664_j20263655703368_2_alg».proof.Proof.Stages
import proofs.«176664_j20263655703368_2_alg».proof.Proof.MatProduct
import proofs.«176664_j20263655703368_2_alg».proof.Proof.BiasAdd
import proofs.«176664_j20263655703368_2_alg».proof.Proof.KernelValue

set_option maxRecDepth 16384

noncomputable section

namespace Cert.ReferenceIdeal.Hand

open Cert.ReferenceIdeal Cert.ReferenceIdeal.Facts₀ Cert.Hand
open Idealize.ShloMosaic Idealize.ShloMosaic.TcCoe Idealize.SL.Sem

/-- The reference's two layers, stage by stage, as one function of the six argument arrays. -/
def refOut (x : FVec Ideal S50000x256 .f32) (e : IVec S2x800000 32) (w1 : FVec Ideal S256x96 .f32) (b1 : FVec Ideal S96 .f32)
    (w2 : FVec Ideal S96x40 .f32) (b2 : FVec Ideal S40 .f32) : FVec Ideal S50000x40 .f32 :=
  addf
    (aggregate40
      (Host.dotGeneral dot_S50000x96_S96x40_S50000x40_1_0_0_1_n_n none
        (maximumf
          (addf
            (aggregate96 (Host.dotGeneral dot_S50000x256_S256x96_S50000x96_1_0_0_1_n_n none x w1) (srcOf e) (dstOf e)
              (weightCol (edgeWeight (srcOf e) (dstOf e))))
            (broadcastInDim S50000x96 ![0, 1] bcast_S1x96_S50000x96_0_1 (broadcastInDim S1x96 ![1] bcast_S96_S1x96_1 b1)))
          (broadcastInDim S50000x96 ![] bcast_S_S50000x96 (constant S_ .f32 0x00000000#32)))
        w2)
      (srcOf e) (dstOf e) (weightCol (edgeWeight (srcOf e) (dstOf e))))
    (broadcastInDim S50000x40 ![0, 1] bcast_S1x40_S50000x40_0_1 (broadcastInDim S1x40 ![1] bcast_S40_S1x40_1 b2))

set_option maxHeartbeats 4000000 in
/-- The run's composed term is that function of the launch memory's arguments: the same operations, grouped. -/
theorem res_out0_eq (m : (ℓ : Loc nD τ sig) → Buf (Elt Ideal) ℓ) (c : Dev nD) :
    Cert.ReferenceIdeal.RunP.res_out0 (F := Ideal) m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  show Cert.ReferenceIdeal.RunP.res_main_v64 (F := Ideal) m c = _
  unfold Cert.ReferenceIdeal.RunP.res_main_v64
  rfl

/-- THE BRIDGE: the reference's function is the kernel's. -/
theorem refOut_eq_kernelOut (x : FVec Ideal S50000x256 .f32) (e : IVec S2x800000 32) (w1 : FVec Ideal S256x96 .f32) (b1 : FVec Ideal S96 .f32)
    (w2 : FVec Ideal S96x40 .f32) (b2 : FVec Ideal S40 .f32) :
    refOut x e w1 b1 w2 b2 = Cert.KernelIdeal.Hand.kernelOut x e w1 b1 w2 b2 := by
  unfold refOut Cert.KernelIdeal.Hand.kernelOut
  rw [dot1_eq, ref_bias1 _ b1 Cert.KernelIdeal.Facts₀.shapeCasts_S96_S1x96, dot2_eq, ref_bias2 _ b2 Cert.KernelIdeal.Facts₀.shapeCasts_S40_S1x40,
    aggregate96_eq, aggregate40_eq, srcOf_eq, dstOf_eq, edgeWeight_eq, weightCol_eq]

end Cert.ReferenceIdeal.Hand

end
-- ==== Proof.lean ====
/-
  A two-layer graph convolution, the kernel's program against its reference, on extended reals.

  Both programs compute, from node features x [50000, 256], an edge list, and two weight matrices and biases,
      out = A · relu(A · (x W1) + b1) W2 + b2,
  where A is the normalized adjacency D^(-1/2) (E + I) D^(-1/2) applied along the edges: gather the source node's row,
  scale by the edge's weight, add into the destination node's row. The kernel's program computes the two products
  x W1 and h W2 and the two bias epilogues in pipelined regions over blocks of 5000 rows (rounding to a 16-bit float on the
  way into and out of the products, which is the identity on extended reals), and everything along the edges with host
  operations; the reference computes everything with host operations.

  The proof: the kernel's result is `kernelOut` of its arguments (the fold of its nine segments, `KernelValue`, over the
  four regions' value lemmas `Region0 … Region3`); the reference's result is `refOut` of its arguments (its run, grouped by
  stage); and `refOut = kernelOut` as functions: a row block of a product is the block of the whole product
  (`MatProduct`), adding a row to every row of a block is the block of adding it to every row of the array (`BiasAdd`),
  and the host stages are the same operations (`Stages`). No law used needs the inputs to be finite. The kernel's
  idealization rewrote no operation, so `preserves` has nothing to show; the three frames are the programs' runs.
-/
import proofs.«176664_j20263655703368_2_alg».proof.Defs
import proofs.«176664_j20263655703368_2_alg».proof.Proof.Gen.Kernel
import proofs.«176664_j20263655703368_2_alg».proof.Proof.Gen.Kernel.Skeleton
import proofs.«176664_j20263655703368_2_alg».proof.Proof.Gen.Kernel.Launch
import proofs.«176664_j20263655703368_2_alg».proof.Proof.Gen.Kernel.Points
import proofs.«176664_j20263655703368_2_alg».proof.Proof.Gen.Kernel.Frame
import proofs.«176664_j20263655703368_2_alg».proof.Proof.Gen.KernelIdeal
import proofs.«176664_j20263655703368_2_alg».proof.Proof.Gen.KernelIdeal.Skeleton
import proofs.«176664_j20263655703368_2_alg».proof.Proof.Gen.KernelIdeal.Launch
import proofs.«176664_j20263655703368_2_alg».proof.Proof.Gen.KernelIdeal.Points
import proofs.«176664_j20263655703368_2_alg».proof.Proof.Gen.KernelIdeal.Frame
import proofs.«176664_j20263655703368_2_alg».proof.Proof.Gen.ReferenceIdeal
import proofs.«176664_j20263655703368_2_alg».proof.Proof.Gen.Pre_finite_inputs
import proofs.«176664_j20263655703368_2_alg».proof.Proof.KernelRun
import proofs.«176664_j20263655703368_2_alg».proof.Proof.KernelValue
import proofs.«176664_j20263655703368_2_alg».proof.Proof.RefRun
import proofs.«176664_j20263655703368_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both runs end with the result at the two-layer function of the arguments: the kernel's by its fold, the reference's
    by its run and the bridge between the two functions, the arguments agreeing. -/
theorem algebraic : Cert.algebraic_KernelIdeal_ReferenceIdeal := by
  intro m ρ m' ρ' _ hagree
  refine ⟨fun c => Cert.KernelIdeal.Hand.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.W9_result m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.RunP.run (F := Ideal) m' ρ')
    obtain ⟨e0, e1, e2, e3, e4, e5⟩ := hagree c
    refine (Cert.ReferenceIdeal.Hand.res_out0_eq m' c).trans ?_
    rw [e0, e1, e2, e3, e4, e5]
    exact Cert.ReferenceIdeal.Hand.refOut_eq_kernelOut _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
